-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S100000x64 .f32) (main_arg4 : FVec F S128x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 70
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x1, .f32⟩
  | .hbm, ⟨51, _⟩ => ⟨S1x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x1, .f32⟩
  | .hbm, ⟨67, _⟩ => ⟨S1x64, .f32⟩
  | .hbm, ⟨68, _⟩ => ⟨S1x64, .f32⟩
  | .hbm, ⟨69, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x1, .f32⟩
  | .local _ .vmem, ⟨13, _⟩ => ⟨S2000x1, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x1, .f32⟩
  | .local _ .vmem, ⟨19, _⟩ => ⟨S2000x1, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_10 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg3) S2000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v42) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000x64 : Shape := ⟨2, ![100000, 64]⟩
abbrev S128x64 : Shape := ⟨2, ![128, 64]⟩
abbrev S64 : Shape := ⟨1, ![64]⟩
abbrev S64x64 : Shape := ⟨2, ![64, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S100000x64, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000x64, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call2_cst : Ref sig .tc := ⟨.hbm, 57, rfl⟩
abbrev main_call2_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  @main is ten segments: five host stretches, region 0, a host stretch, region 1, a host stretch, region 2. The
  contents of every unscoped buffer at each boundary are a fold from the launch memory (Gen.W0 … Gen.W10): a host
  stretch applies its operations in order, a region replaces its windows' arrays by what its write-backs leave and
  keeps every other buffer. Every weakly fair execution ends with every unscoped buffer at the last boundary's
  contents W10. The result main_v42 is an unscoped buffer, so it ends at W10's value there; each argument is written
  by no stretch and no region, so W10 at it is the launch memory.
-/
import proofs.«133820_j3693671874875_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which unfolds
-- plain definitions in a metavariable's type
set_option backward.isDefEq.respectTransparency.types false in
/-- Every weakly fair execution of @main terminates without a fault; the result array ends at the last boundary's
    contents and the argument arrays as launched. The launch over the ten segments: the segments' run IS @main; the
    three pipelines are met in order; the launch tokens are handed over whole; consecutive segments meet at the same
    thread state (eleven boundaries, each by reflexivity); the launch state splits into the held unscoped buffers, the
    generator register and an empty debt; the last thread state, read against the final memory, gives every unscoped
    buffer at W10 — and from that the post: the result buffer directly, each argument through the fold. -/
theorem run : θ_run defs (onTc (τ := τ) (main (F := F))) ⟨m, fun _ => 0, ρ⟩ (fun r => ∀ c : Dev nD,
      r.2.mem ((c.tc : Thread nD τ).loc main_v42) = W10 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v42 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.RunValue

end
-- ==== Proof.LibLayout.lean ====
/-
  Keepdims column and row forms, for any element type and any extents.

  Read at coordinates: a vector [a] laid out as a column [a, 1] by a cast, and a column [a, 1] repeated along a second
  axis to [a, b] by a broadcast, both read, at (p, ·), the entry p of what they were given.
  As arrays: a vector cast to a column [a, 1] (to a row [1, a]) is the same array as the vector broadcast along a new
  trailing (leading) unit axis — the two ways a program may spell keepdims.
-/
import Idealize.ShloMosaic.Lib.Pipeline.Value
import Idealize.ShloMosaic.Lib.ValueIdx
import Idealize.ShloMosaic.Lib.ValueLayout

namespace Cert.Layout

open Idealize.ShloMosaic Idealize.ShloMosaic.ValueIdx

variable {α : Type}

/-- An [a] array cast to [a, 1] reads, at (p, u), the operand at p, whatever the unit coordinate u: the row-major
    position of (p, u) in [a, 1] is p·1 + u = p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid out as a column by a cast is the vector broadcast along a new trailing unit axis: both read, at
    (p, u), the vector's entry p. -/
theorem col_cast_eq_bcast {a : ℕ} (x : (⟨1, ![a]⟩ : Shape).Idx → α) (h : (⟨1, ![a]⟩ : Shape).ShapeCasts ⟨2, ![a, 1]⟩)
    (dims : Fin 1 → Fin 2) (hd : dims 0 = 0) (h' : (⟨1, ![a]⟩ : Shape).BroadcastsInDim ⟨2, ![a, 1]⟩ dims) :
    shapeCast ⟨2, ![a, 1]⟩ x h = broadcastInDim ⟨2, ![a, 1]⟩ dims h' x := by
  funext i
  obtain ⟨p, u, rfl⟩ : ∃ (p : Fin a) (u : Fin 1), i = ix2 p u := ⟨i 0, i 1, eq_ix2 i⟩
  rw [shapeCast_a_a1_apply]
  symm
  refine broadcastInDim_apply dims h' x (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A vector laid out as a row by a cast is the vector broadcast along a new leading unit axis: both read, at
    (u, p), the vector's entry p. -/
theorem row_cast_eq_bcast {a : ℕ} (x : (⟨1, ![a]⟩ : Shape).Idx → α) (h : (⟨1, ![a]⟩ : Shape).ShapeCasts ⟨2, ![1, a]⟩)
    (dims : Fin 1 → Fin 2) (hd : dims 0 = 1) (h' : (⟨1, ![a]⟩ : Shape).BroadcastsInDim ⟨2, ![1, a]⟩ dims) :
    shapeCast ⟨2, ![1, a]⟩ x h = broadcastInDim ⟨2, ![1, a]⟩ dims h' x := by
  funext i
  obtain ⟨u, p, rfl⟩ : ∃ (u : Fin 1) (p : Fin a), i = ix2 u p := ⟨i 0, i 1, eq_ix2 i⟩
  rw [shapeCast_a_1a_apply]
  symm
  refine broadcastInDim_apply dims h' x (ix2 u p) (ix1 p) fun ax => ?_
  match ax with
  | ⟨0, _⟩ =>
    show p.val = if a = 1 then 0 else (ix2 u p (dims 0)).val
    rw [hd]
    show p.val = if a = 1 then 0 else p.val
    split
    · have := p.isLt; omega
    · rfl

end Cert.Layout
-- ==== Proof.RegionA.lean ====
/-
  Region 0 (the first layer's projection): what its output array holds after the run, as one function of the three
  arrays its windows read, for ANY contents V the region is entered with, at the extended reals.

  Block t of the output is rows 2000·t … 2000·t + 1999, all 64 columns. The feature window and the degree column's
  window move with it (block index (t, 0)); the weight's window stays at (0, 0). At the extended reals the change of
  float format is the identity and the matrix product into a zero accumulator is the plain sum over the contracted
  axis, so the entry (r, q) of the output is
      Σ_k (X(r, k) · s(r)) · W(k, q).
  The fifty blocks tile the array, so the array ends holding that function everywhere.
-/
import proofs.«133820_j3693671874875_1_alg».proof.Proof.Gen.KernelIdeal.Frame
import proofs.«133820_j3693671874875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionA

open Cert.KernelIdeal Cert.KernelIdeal.Gen
open Idealize.ShloMosaic Idealize.ShloMosaic.TcCoe Idealize.ShloMosaic.ValueIdx Idealize.SL.Sem
open Idealize.ShloMosaic.Pipeline (Dat)

/-- The projected features, entry by entry: row r of X scaled by s(r), times column q of W. -/
def project (X : S100000x128.Idx → EReal) (s : S100000x1.Idx → EReal) (W : S128x64.Idx → EReal) : S100000x64.Idx → EReal :=
  fun i => ∑ k : Fin 128, (X (ix2 (i 0) k) * s (ix2 (i 0) (0 : Fin 1))) * W (ix2 k (i 1))

/-! ## The block product's operand indices -/

local notation "D" => dot_S2000x128_S128x64_S2000x64_1_0_0_1_n_n

theorem lhs_row (y : S2000x64.Idx) (q : dot_S2000x128_S128x64_S2000x64_1_0_0_1_n_n.contr.Idx) :
    (dot_S2000x128_S128x64_S2000x64_1_0_0_1_n_n.lhsIdx y q 0).val = (y 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem lhs_col (y : S2000x64.Idx) (q : dot_S2000x128_S128x64_S2000x64_1_0_0_1_n_n.contr.Idx) :
    (dot_S2000x128_S128x64_S2000x64_1_0_0_1_n_n.lhsIdx y q 1).val = (q ⟨0, by decide⟩).val :=
  dot_S2000x128_S128x64_S2000x64_1_0_0_1_n_n.lhsIdx_val_of_single rfl y q
theorem rhs_row (y : S2000x64.Idx) (q : dot_S2000x128_S128x64_S2000x64_1_0_0_1_n_n.contr.Idx) :
    (dot_S2000x128_S128x64_S2000x64_1_0_0_1_n_n.rhsIdx y q 0).val = (q ⟨0, by decide⟩).val :=
  dot_S2000x128_S128x64_S2000x64_1_0_0_1_n_n.rhsIdx_val_of_single rfl y q
theorem rhs_col (y : S2000x64.Idx) (q : dot_S2000x128_S128x64_S2000x64_1_0_0_1_n_n.contr.Idx) :
    (dot_S2000x128_S128x64_S2000x64_1_0_0_1_n_n.rhsIdx y q 1).val = (y 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The body's payload at an entry of a block: the scaled row of the feature block against the weight's column. -/
theorem pay_apply (x0 : Vec Ideal S2000x128 .f32) (x1 : Vec Ideal S2000x1 .f32) (x2 : Vec Ideal S128x64 .f32) (y : S2000x64.Idx) :
    k0_pay1 (F := Ideal) x0 x1 x2 y = ∑ k : Fin 128, (x0 (ix2 (y 0) k) * x1 (ix2 (y 0) (0 : Fin 1))) * x2 (ix2 k (y 1)) := by
  obtain ⟨p, q, rfl⟩ : ∃ (p : Fin 2000) (q : Fin 64), y = ix2 p q := ⟨y 0, y 1, eq_ix2 y⟩
  unfold k0_pay1
  simp only [shapeCast_self, matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x64_S2000x64_1_0_0_1_n_n.rhsIdx (ix2 p q) ((contrEquiv1 dot_S2000x128_S128x64_S2000x64_1_0_0_1_n_n 128 rfl rfl).symm k) = ix2 k q :=
    funext fun a => Fin.ext (by
      match a with
      | ⟨0, _⟩ => exact (rhs_row _ _).trans hk
      | ⟨1, _⟩ => exact rhs_col _ _)
  rw [el, er]
  show (x0 (ix2 p k) * broadcastTo S2000x128 x1 broadcasts_S2000x1_S2000x128 (ix2 p k)) * x2 (ix2 k q) = _
  rw [Cert.Layout.broadcastTo_a1_ab_apply x1]

/-! ## From the blocks to the array -/

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the fifty points: the features' and the column's blocks sit at row block t like the
    output's; every window's column block, and the weight's row block, is 0. -/
theorem index_maps : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- What point t writes back is block t of the projection of the arrays as the region finds them. -/
theorem flushed_eq (c : Dev nD) (t : Fin cfg0.N) :
    (dat0 V c).flushed 3 t = ((cfg0.win 3).blk t).view.read (Elt Ideal)
      (project (V c main_arg0) (V c main_v13) (V c main_arg4)) := by
  show (cfg0.win 3).cut (grid0.coords t) ((dat0 V c).after 3 t) = _
  rw [after0_3]
  unfold out0_3
  rw [View.canon_unit_zero off_zero]
  simp only [View.ld_unit_zero (S := S2000x128) off_zero, View.ld_unit_zero (S := S2000x1) off_zero,
    View.ld_unit_zero (S := S128x64) off_zero]
  obtain ⟨e30, e31, e00, e01, e10, e11, e20, e21⟩ := index_maps t
  funext j
  refine (pay_apply (iblk0 V c 0 t) (iblk0 V c 1 t) (iblk0 V c 2 t) j).trans ?_
  have hj0 : (j 0).val < 2000 := (j 0).isLt
  have hj1 : (j 1).val < 64 := (j 1).isLt
  have h0 : ∀ k : Fin 128, ((cfg0.win 0).blk t).view.emb (ix2 (j 0) k) = ix2 ((((cfg0.win 3).blk t).view.emb j) 0) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  have h1 : ((cfg0.win 1).blk t).view.emb (ix2 (j 0) (0 : Fin 1)) = ix2 ((((cfg0.win 3).blk t).view.emb j) 0) (0 : Fin 1) := by
    funext a; apply Fin.ext
    match a with
    | ⟨0, _⟩ => show win0_1.index t (0 : Fin 2) * 2000 + 1 * (j 0).val = win0_3.index t (0 : Fin 2) * 2000 + 1 * (j 0).val; omega
    | ⟨1, _⟩ => show win0_1.index t (1 : Fin 2) * 1 + 1 * 0 = 0; omega
  have h2 : ∀ k : Fin 128, ((cfg0.win 2).blk t).view.emb (ix2 k (j 1)) = ix2 k ((((cfg0.win 3).blk t).view.emb j) 1) := fun k => by
    funext a; apply Fin.ext
    match a with
    | ⟨0, _⟩ => show win0_2.index t (0 : Fin 2) * 128 + 1 * k.val = k.val; omega
    | ⟨1, _⟩ => show win0_2.index t (1 : Fin 2) * 64 + 1 * (j 1).val = win0_3.index t (1 : Fin 2) * 64 + 1 * (j 1).val; omega
  have key : ∀ (X : S100000x128.Idx → EReal) (s : S100000x1.Idx → EReal) (W : S128x64.Idx → EReal),
      (∑ k : Fin 128, (X (((cfg0.win 0).blk t).view.emb (ix2 (j 0) k)) * s (((cfg0.win 1).blk t).view.emb (ix2 (j 0) (0 : Fin 1))))
        * W (((cfg0.win 2).blk t).view.emb (ix2 k (j 1))))
      = project X s W (((cfg0.win 3).blk t).view.emb j) := by
    intro X s W
    rw [h1]
    refine Finset.sum_congr rfl fun k _ => ?_
    rw [h0 k, h2 k]
    rfl
  exact key (V c main_arg0) (V c main_v13) (V c main_arg4)

/-- An index of the output array is in point t's block iff each coordinate is in the block's range on its axis. -/
theorem mem_blk (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v14).slice (win0_3.rect t)).set ↔ _
  rw [View.set_slice_whole, Rect.mem_set_unit]
  exact Iff.rfl

/-- Row r lies in the block of point r / 2000: the fifty blocks tile the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 50 := N_0
  let t : Fin cfg0.N := ⟨(i 0).val / 2000, by show (i 0).val / 2000 < grid0.N; omega⟩
  obtain ⟨e30, e31, -⟩ := index_maps t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- The output array after the region's run. -/
theorem final (c : Dev nD) :
    (dat0 V c).arrAt 3 cfg0.N = project (V c main_arg0) (V c main_v13) (V c main_arg4) :=
  (dat0 V c).arrAt_eq_of_cover 3 _ (fun t _ => flushed_eq V c t) cover

end Cert.KernelIdeal.RegionA

end
-- ==== Proof.RegionB.lean ====
/-
  Region 1 (the elementwise rescale): what its output array holds after the run, as one function of the four arrays
  its windows read, for ANY contents V the region is entered with.

  Block t of the output is rows 2000·t … 2000·t + 1999, all 64 columns. The aggregate's window and the two degree
  columns' windows move with it (block index (t, 0)); the bias row's window stays at (0, 0). So the entry (r, q) of
  the output depends on the aggregate at (r, q), the two columns at (r, 0) and the bias at (0, q):
      max(agg(r, q) · nd(r) + b(q), 0) · ns(r).
  The fifty blocks tile the array, so the array ends holding that function everywhere.
-/
import proofs.«133820_j3693671874875_1_alg».proof.Proof.Gen.KernelIdeal.Frame
import proofs.«133820_j3693671874875_1_alg».proof.Proof.LibLayout
import Idealize.ShloMosaic.Lib.Pipeline.Value
import Idealize.ShloMosaic.Lib.ValueIdx
import Idealize.ShloMosaic.Lib.ValueLayout

set_option maxRecDepth 16384

noncomputable section

namespace Cert.KernelIdeal.RegionB

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The rescaled activation, entry by entry. -/
def rescale (A : S100000x64.Idx → Elt F .f32) (nd : S100000x1.Idx → Elt F .f32) (b : S1x64.Idx → Elt F .f32)
    (ns : S100000x1.Idx → Elt F .f32) : S100000x64.Idx → Elt F .f32 := fun i =>
  FloatOps.mulf (FloatOps.maximumf (FloatOps.addf (FloatOps.mulf (A i) (nd (ix2 (i 0) (0 : Fin 1)))) (b (ix2 (0 : Fin 1) (i 1))))
    (FloatOps.ofBits .f32 0x00000000#32)) (ns (ix2 (i 0) (0 : Fin 1)))

/-- The body's payload at an entry (p, q) of a block: the same expression of the four loaded blocks. -/
theorem pay_apply (x0 : Vec F S2000x64 .f32) (x1 : Vec F S2000x1 .f32) (x2 : Vec F S1x64 .f32) (x3 : Vec F S2000x1 .f32)
    (y : S2000x64.Idx) :
    k1_pay1 x0 x1 x2 x3 y = FloatOps.mulf (FloatOps.maximumf (FloatOps.addf (FloatOps.mulf (x0 y) (x1 (ix2 (y 0) (0 : Fin 1))))
      (x2 (ix2 (0 : Fin 1) (y 1)))) (FloatOps.ofBits .f32 0x00000000#32)) (x3 (ix2 (y 0) (0 : Fin 1))) := by
  obtain ⟨p, q, rfl⟩ : ∃ (p : Fin 2000) (q : Fin 64), y = ix2 p q := ⟨y 0, y 1, eq_ix2 y⟩
  unfold k1_pay1
  simp only [shapeCast_self]
  show FloatOps.mulf (FloatOps.maximumf (FloatOps.addf (FloatOps.mulf (x0 (ix2 p q))
      (broadcastTo S2000x64 x1 broadcasts_S2000x1_S2000x64 (ix2 p q))) (broadcastTo S2000x64 x2 broadcasts_S1x64_S2000x64 (ix2 p q)))
      (FloatOps.ofBits .f32 0x00000000#32)) (broadcastTo S2000x64 x3 broadcasts_S2000x1_S2000x64 (ix2 p q)) = _
  rw [Cert.Layout.broadcastTo_a1_ab_apply x1, broadcastTo_1b_ab_apply x2, Cert.Layout.broadcastTo_a1_ab_apply x3]

/-! ## From the blocks to the array -/

variable (V : (c : Dev nD) → (b : Ref sig .tc) → Buf (Elt F) ((c : Thread nD τ).loc b))

theorem off_zero : (![0, 0] : Fin 2 → Nat) = fun _ => 0 := funext fun a => by fin_cases a <;> rfl

/-- The printed index maps over the fifty points: the aggregate's and the two columns' blocks sit at row block t like
    the output's; every window's column block, and the bias row's row block, is 0. -/
theorem index_maps : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the rescaled activation of the arrays as the region finds them. -/
theorem flushed_eq (c : Dev nD) (t : Fin cfg1.N) :
    (dat1 V c).flushed 4 t = ((cfg1.win 4).blk t).view.read (Elt F)
      (rescale (V c main_v24) (V c main_v25) (V c main_v27) (V c main_v26)) := by
  show (cfg1.win 4).cut (grid1.coords t) ((dat1 V c).after 4 t) = _
  rw [after1_4]
  unfold out1_4
  rw [View.canon_unit_zero off_zero]
  simp only [View.ld_unit_zero (S := S2000x64) off_zero, View.ld_unit_zero (S := S2000x1) off_zero,
    View.ld_unit_zero (S := S1x64) off_zero]
  obtain ⟨e40, e41, e00, e01, e10, e11, e20, e21, e30, e31⟩ := index_maps t
  funext j
  refine (pay_apply (iblk1 V c 0 t) (iblk1 V c 1 t) (iblk1 V c 2 t) (iblk1 V c 3 t) j).trans ?_
  have hj0 : (j 0).val < 2000 := (j 0).isLt
  have hj1 : (j 1).val < 64 := (j 1).isLt
  have h0 : ((cfg1.win 0).blk t).view.emb j = ((cfg1.win 4).blk t).view.emb j := by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb (ix2 (j 0) (0 : Fin 1)) = ix2 ((((cfg1.win 4).blk t).view.emb j) 0) (0 : Fin 1) := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  have h2 : ((cfg1.win 2).blk t).view.emb (ix2 (0 : Fin 1) (j 1)) = ix2 (0 : Fin 1) ((((cfg1.win 4).blk t).view.emb j) 1) := by
    funext a; apply Fin.ext
    match a with
    | ⟨0, _⟩ => show win1_2.index t (0 : Fin 2) * 1 + 1 * 0 = 0; omega
    | ⟨1, _⟩ => show win1_2.index t (1 : Fin 2) * 64 + 1 * (j 1).val = win1_4.index t (1 : Fin 2) * 64 + 1 * (j 1).val; omega
  have h3 : ((cfg1.win 3).blk t).view.emb (ix2 (j 0) (0 : Fin 1)) = ix2 ((((cfg1.win 4).blk t).view.emb j) 0) (0 : Fin 1) := by
    funext a; apply Fin.ext
    match a with
    | ⟨0, _⟩ => show win1_3.index t (0 : Fin 2) * 2000 + 1 * (j 0).val = win1_4.index t (0 : Fin 2) * 2000 + 1 * (j 0).val; omega
    | ⟨1, _⟩ => show win1_3.index t (1 : Fin 2) * 1 + 1 * 0 = 0; omega
  show FloatOps.mulf (FloatOps.maximumf (FloatOps.addf (FloatOps.mulf (V c main_v24 (((cfg1.win 0).blk t).view.emb j))
      (V c main_v25 (((cfg1.win 1).blk t).view.emb (ix2 (j 0) (0 : Fin 1))))) (V c main_v27 (((cfg1.win 2).blk t).view.emb (ix2 (0 : Fin 1) (j 1)))))
      (FloatOps.ofBits .f32 0x00000000#32)) (V c main_v26 (((cfg1.win 3).blk t).view.emb (ix2 (j 0) (0 : Fin 1))))
    = rescale (V c main_v24) (V c main_v25) (V c main_v27) (V c main_v26) (((cfg1.win 4).blk t).view.emb j)
  rw [h0, h1, h2, h3]
  rfl

/-- An index of the output array is in point t's block iff each coordinate is in the block's range on its axis. -/
theorem mem_blk (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v28).slice (win1_4.rect t)).set ↔ _
  rw [View.set_slice_whole, Rect.mem_set_unit]
  exact Iff.rfl

/-- Row r lies in the block of point r / 2000: the fifty blocks tile the array. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 50 := N_1
  let t : Fin cfg1.N := ⟨(i 0).val / 2000, by show (i 0).val / 2000 < grid1.N; omega⟩
  obtain ⟨e40, e41, -⟩ := index_maps t
  have ht : t.val = (i 0).val / 2000 := rfl
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The output array after the region's run. -/
theorem final (c : Dev nD) :
    (dat1 V c).arrAt 4 cfg1.N = rescale (V c main_v24) (V c main_v25) (V c main_v27) (V c main_v26) :=
  (dat1 V c).arrAt_eq_of_cover 4 _ (fun t _ => flushed_eq V c t) cover

end Cert.KernelIdeal.RegionB

end
-- ==== Proof.RegionC.lean ====
/-
  Region 2 (the two output heads and the reparameterised sample): what its output array holds after the run, as one
  function of the seven arrays its windows read, for ANY contents V the region is entered with, at the extended reals.

  Block t of the output is rows 2000·t … 2000·t + 1999, all 64 columns. The aggregate's, the degree column's and the
  noise's windows move with it (block index (t, 0)); the two weights' and the two bias rows' windows stay at (0, 0).
  At the extended reals the change of float format is the identity and each matrix product into a zero accumulator
  is the plain sum over the contracted axis, so the entry (r, q) of the output is
      (Σ_k A(r, k)·Wμ(k, q))·nd(r) + bμ(q)  +  noise(r, q) · exp((Σ_k A(r, k)·Wσ(k, q))·nd(r) + bσ(q)).
  The fifty blocks tile the array, so the array ends holding that function everywhere.
-/
import proofs.«133820_j3693671874875_1_alg».proof.Proof.Gen.KernelIdeal.Frame
import proofs.«133820_j3693671874875_1_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionC

open Cert.KernelIdeal Cert.KernelIdeal.Gen
open Idealize.ShloMosaic Idealize.ShloMosaic.TcCoe Idealize.ShloMosaic.ValueIdx Idealize.SL.Sem
open Idealize.ShloMosaic.Pipeline (Dat)

/-- One head before the nonlinearity: the aggregate's row against a weight's column, scaled by the destination
    degree's entry, plus the bias. -/
def head (A : S100000x64.Idx → EReal) (nd : S100000x1.Idx → EReal) (W : S64x64.Idx → EReal) (b : S1x64.Idx → EReal)
    (i : S100000x64.Idx) : EReal :=
  (∑ k : Fin 64, A (ix2 (i 0) k) * W (ix2 k (i 1))) * nd (ix2 (i 0) (0 : Fin 1)) + b (ix2 (0 : Fin 1) (i 1))

/-- The sample, entry by entry: the mean head plus the noise times the exponential of the log-deviation head. -/
def combine (A : S100000x64.Idx → EReal) (nd : S100000x1.Idx → EReal) (Wm : S64x64.Idx → EReal) (bm : S1x64.Idx → EReal)
    (Ws : S64x64.Idx → EReal) (bs : S1x64.Idx → EReal) (nz : S100000x64.Idx → EReal) : S100000x64.Idx → EReal :=
  fun i => head A nd Wm bm i + nz i * Ideal.exp (head A nd Ws bs i)

/-! ## The block product's operand indices -/

theorem lhs_row (y : S2000x64.Idx) (q : dot_S2000x64_S64x64_S2000x64_1_0_0_1_n_n.contr.Idx) : (dot_S2000x64_S64x64_S2000x64_1_0_0_1_n_n.lhsIdx y q 0).val = (y 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem lhs_col (y : S2000x64.Idx) (q : dot_S2000x64_S64x64_S2000x64_1_0_0_1_n_n.contr.Idx) : (dot_S2000x64_S64x64_S2000x64_1_0_0_1_n_n.lhsIdx y q 1).val = (q ⟨0, by decide⟩).val :=
  dot_S2000x64_S64x64_S2000x64_1_0_0_1_n_n.lhsIdx_val_of_single rfl y q
theorem rhs_row (y : S2000x64.Idx) (q : dot_S2000x64_S64x64_S2000x64_1_0_0_1_n_n.contr.Idx) : (dot_S2000x64_S64x64_S2000x64_1_0_0_1_n_n.rhsIdx y q 0).val = (q ⟨0, by decide⟩).val :=
  dot_S2000x64_S64x64_S2000x64_1_0_0_1_n_n.rhsIdx_val_of_single rfl y q
theorem rhs_col (y : S2000x64.Idx) (q : dot_S2000x64_S64x64_S2000x64_1_0_0_1_n_n.contr.Idx) : (dot_S2000x64_S64x64_S2000x64_1_0_0_1_n_n.rhsIdx y q 1).val = (y 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- A block product into the zero accumulator at (p, q): row p of the left block against column q of the right. -/
theorem product_apply {φ₁ φ₂ : FTy} (l : FVec Ideal S2000x64 φ₁) (r : FVec Ideal S64x64 φ₂) (p : Fin 2000) (q : Fin 64) :
    FloatOps.matmul dot_S2000x64_S64x64_S2000x64_1_0_0_1_n_n none l r (constant S2000x64 .f32 0x00000000#32) (ix2 p q)
      = ∑ k : Fin 64, l (ix2 p k) * r (ix2 k q) := by
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S2000x64_S64x64_S2000x64_1_0_0_1_n_n.rhsIdx (ix2 p q) ((contrEquiv1 dot_S2000x64_S64x64_S2000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The body's payload at an entry of a block. -/
theorem pay_apply (v0 : Vec Ideal S2000x64 .f32) (v3 : Vec Ideal S64x64 .f32) (v5 : Vec Ideal S64x64 .f32) (v8 : Vec Ideal S2000x1 .f32)
    (v12 : Vec Ideal S1x64 .f32) (v17 : Vec Ideal S2000x1 .f32) (v21 : Vec Ideal S1x64 .f32) (v25 : Vec Ideal S2000x64 .f32) (y : S2000x64.Idx) :
    k2_pay1 (F := Ideal) v0 v3 v5 v8 v12 v17 v21 v25 y
      = ((∑ k : Fin 64, v0 (ix2 (y 0) k) * v3 (ix2 k (y 1))) * v8 (ix2 (y 0) (0 : Fin 1)) + v12 (ix2 (0 : Fin 1) (y 1)))
        + v25 y * Ideal.exp ((∑ k : Fin 64, v0 (ix2 (y 0) k) * v5 (ix2 k (y 1))) * v17 (ix2 (y 0) (0 : Fin 1)) + v21 (ix2 (0 : Fin 1) (y 1))) := by
  obtain ⟨p, q, rfl⟩ : ∃ (p : Fin 2000) (q : Fin 64), y = ix2 p q := ⟨y 0, y 1, eq_ix2 y⟩
  unfold k2_pay1
  simp only [shapeCast_self, matmul]
  show (FloatOps.matmul (F := Ideal) dot_S2000x64_S64x64_S2000x64_1_0_0_1_n_n none (truncf .bf16 v0 bitsLt_bf16_f32) (truncf .bf16 v3 bitsLt_bf16_f32) (constant S2000x64 .f32 0x00000000#32) (ix2 p q)
        * broadcastTo S2000x64 v8 broadcasts_S2000x1_S2000x64 (ix2 p q) + broadcastTo S2000x64 v12 broadcasts_S1x64_S2000x64 (ix2 p q))
      + v25 (ix2 p q) * Ideal.exp (FloatOps.matmul (F := Ideal) dot_S2000x64_S64x64_S2000x64_1_0_0_1_n_n none (truncf .bf16 v0 bitsLt_bf16_f32) (truncf .bf16 v5 bitsLt_bf16_f32) (constant S2000x64 .f32 0x00000000#32) (ix2 p q)
        * broadcastTo S2000x64 v17 broadcasts_S2000x1_S2000x64 (ix2 p q) + broadcastTo S2000x64 v21 broadcasts_S1x64_S2000x64 (ix2 p q)) = _
  rw [product_apply, product_apply, Cert.Layout.broadcastTo_a1_ab_apply v8, broadcastTo_1b_ab_apply v12,
    Cert.Layout.broadcastTo_a1_ab_apply v17, broadcastTo_1b_ab_apply v21]
  rfl

/-- The payload's expression over array entries named by index: when the indices are the entry's row against the
    contracted axis, the contracted axis against the entry's column, the entry's row in the column and the entry's
    column in the bias rows, it is the sample at that entry. -/
theorem assemble (A : S100000x64.Idx → EReal) (nd : S100000x1.Idx → EReal) (Wm : S64x64.Idx → EReal) (bm : S1x64.Idx → EReal)
    (Ws : S64x64.Idx → EReal) (bs : S1x64.Idx → EReal) (nz : S100000x64.Idx → EReal) (i : S100000x64.Idx)
    (a : Fin 64 → S100000x64.Idx) (w w' : Fin 64 → S64x64.Idx) (d : S100000x1.Idx) (b b' : S1x64.Idx) (n : S100000x64.Idx)
    (ha : ∀ k, a k = ix2 (i 0) k) (hw : ∀ k, w k = ix2 k (i 1)) (hw' : ∀ k, w' k = ix2 k (i 1))
    (hd : d = ix2 (i 0) (0 : Fin 1)) (hb : b = ix2 (0 : Fin 1) (i 1)) (hb' : b' = ix2 (0 : Fin 1) (i 1)) (hn : n = i) :
    ((∑ k : Fin 64, A (a k) * Wm (w k)) * nd d + bm b) + nz n * Ideal.exp ((∑ k : Fin 64, A (a k) * Ws (w' k)) * nd d + bs b')
      = combine A nd Wm bm Ws bs nz i := by
  obtain rfl : a = fun k => ix2 (i 0) k := funext ha
  obtain rfl : w = fun k => ix2 k (i 1) := funext hw
  obtain rfl : w' = fun k => ix2 k (i 1) := funext hw'
  subst hd hb hb' hn
  rfl

/-! ## From the blocks to the array -/

variable (V : (c : Dev nD) → (b : Ref sig .tc) → Buf (Elt Ideal) ((c : Thread nD τ).loc b))

theorem off_zero : (![0, 0] : Fin 2 → Nat) = fun _ => 0 := funext fun a => by fin_cases a <;> rfl

/-- The printed index maps over the fifty points: the aggregate's, the column's and the noise's blocks sit at row
    block t like the output's; every window's column block, and the weights' and bias rows' row block, is 0. -/
theorem index_maps : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1000000 in
/-- What point t writes back is block t of the sample of the arrays as the region finds them. -/
theorem flushed_eq (c : Dev nD) (t : Fin cfg2.N) :
    (dat2 V c).flushed 7 t = ((cfg2.win 7).blk t).view.read (Elt Ideal)
      (combine (V c main_v38) (V c main_v39) (V c main_arg6) (V c main_v40) (V c main_arg8) (V c main_v41) (V c main_arg3)) := by
  show (cfg2.win 7).cut (grid2.coords t) ((dat2 V c).after 7 t) = _
  rw [after2_7]
  unfold out2_7
  rw [View.canon_unit_zero off_zero]
  simp only [View.ld_unit_zero (S := S2000x64) off_zero, View.ld_unit_zero (S := S2000x1) off_zero,
    View.ld_unit_zero (S := S64x64) off_zero, View.ld_unit_zero (S := S1x64) off_zero]
  obtain ⟨e70, e71, e00, e01, e10, e11, e20, e21, e30, e31, e40, e41, e50, e51, e60, e61⟩ := index_maps t
  funext j
  refine (pay_apply (iblk2 V c 0 t) (iblk2 V c 2 t) (iblk2 V c 4 t) (iblk2 V c 1 t) (iblk2 V c 3 t) (iblk2 V c 1 t)
    (iblk2 V c 5 t) (iblk2 V c 6 t) j).trans ?_
  have hj0 : (j 0).val < 2000 := (j 0).isLt
  have hj1 : (j 1).val < 64 := (j 1).isLt
  have h0 : ∀ k : Fin 64, ((cfg2.win 0).blk t).view.emb (ix2 (j 0) k) = ix2 ((((cfg2.win 7).blk t).view.emb j) 0) k := fun k => by
    funext a; apply Fin.ext
    match a with
    | ⟨0, _⟩ => show win2_0.index t (0 : Fin 2) * 2000 + 1 * (j 0).val = win2_7.index t (0 : Fin 2) * 2000 + 1 * (j 0).val; omega
    | ⟨1, _⟩ => show win2_0.index t (1 : Fin 2) * 64 + 1 * k.val = k.val; omega
  have h1 : ((cfg2.win 1).blk t).view.emb (ix2 (j 0) (0 : Fin 1)) = ix2 ((((cfg2.win 7).blk t).view.emb j) 0) (0 : Fin 1) := by
    funext a; apply Fin.ext
    match a with
    | ⟨0, _⟩ => show win2_1.index t (0 : Fin 2) * 2000 + 1 * (j 0).val = win2_7.index t (0 : Fin 2) * 2000 + 1 * (j 0).val; omega
    | ⟨1, _⟩ => show win2_1.index t (1 : Fin 2) * 1 + 1 * 0 = 0; omega
  have h2 : ∀ k : Fin 64, ((cfg2.win 2).blk t).view.emb (ix2 k (j 1)) = ix2 k ((((cfg2.win 7).blk t).view.emb j) 1) := fun k => by
    funext a; apply Fin.ext
    match a with
    | ⟨0, _⟩ => show win2_2.index t (0 : Fin 2) * 64 + 1 * k.val = k.val; omega
    | ⟨1, _⟩ => show win2_2.index t (1 : Fin 2) * 64 + 1 * (j 1).val = win2_7.index t (1 : Fin 2) * 64 + 1 * (j 1).val; omega
  have h3 : ((cfg2.win 3).blk t).view.emb (ix2 (0 : Fin 1) (j 1)) = ix2 (0 : Fin 1) ((((cfg2.win 7).blk t).view.emb j) 1) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_7.index t (1 : Fin 2) * 64 + 1 * (j 1).val; omega
  have h4 : ∀ k : Fin 64, ((cfg2.win 4).blk t).view.emb (ix2 k (j 1)) = ix2 k ((((cfg2.win 7).blk t).view.emb j) 1) := fun k => by
    funext a; apply Fin.ext
    match a with
    | ⟨0, _⟩ => show win2_4.index t (0 : Fin 2) * 64 + 1 * k.val = k.val; omega
    | ⟨1, _⟩ => show win2_4.index t (1 : Fin 2) * 64 + 1 * (j 1).val = win2_7.index t (1 : Fin 2) * 64 + 1 * (j 1).val; omega
  have h5 : ((cfg2.win 5).blk t).view.emb (ix2 (0 : Fin 1) (j 1)) = ix2 (0 : Fin 1) ((((cfg2.win 7).blk t).view.emb j) 1) := by
    funext a; apply Fin.ext
    match a with
    | ⟨0, _⟩ => show win2_5.index t (0 : Fin 2) * 1 + 1 * 0 = 0; omega
    | ⟨1, _⟩ => show win2_5.index t (1 : Fin 2) * 64 + 1 * (j 1).val = win2_7.index t (1 : Fin 2) * 64 + 1 * (j 1).val; omega
  have h6 : ((cfg2.win 6).blk t).view.emb j = ((cfg2.win 7).blk t).view.emb j := by
    funext a; apply Fin.ext
    match a with
    | ⟨0, _⟩ => show win2_6.index t (0 : Fin 2) * 2000 + 1 * (j 0).val = win2_7.index t (0 : Fin 2) * 2000 + 1 * (j 0).val; omega
    | ⟨1, _⟩ => show win2_6.index t (1 : Fin 2) * 64 + 1 * (j 1).val = win2_7.index t (1 : Fin 2) * 64 + 1 * (j 1).val; omega
  exact assemble (V c main_v38) (V c main_v39) (V c main_arg6) (V c main_v40) (V c main_arg8) (V c main_v41) (V c main_arg3)
    (((cfg2.win 7).blk t).view.emb j)
    (fun k => ((cfg2.win 0).blk t).view.emb (ix2 (j 0) k)) (fun k => ((cfg2.win 2).blk t).view.emb (ix2 k (j 1)))
    (fun k => ((cfg2.win 4).blk t).view.emb (ix2 k (j 1))) (((cfg2.win 1).blk t).view.emb (ix2 (j 0) (0 : Fin 1)))
    (((cfg2.win 3).blk t).view.emb (ix2 (0 : Fin 1) (j 1))) (((cfg2.win 5).blk t).view.emb (ix2 (0 : Fin 1) (j 1)))
    (((cfg2.win 6).blk t).view.emb j) h0 h2 h4 h1 h3 h5 h6

/-- An index of the output array is in point t's block iff each coordinate is in the block's range on its axis. -/
theorem mem_blk (t : Fin cfg2.N) (i : S100000x64.Idx) :
    i ∈ ((cfg2.win 7).blk t).view.set ↔ ∀ a : Fin 2, win2_7.index t a * S2000x64.size a ≤ (i a).val ∧ (i a).val < win2_7.index t a * S2000x64.size a + S2000x64.size a := by
  show i ∈ ((View.whole main_v42).slice (win2_7.rect t)).set ↔ _
  rw [View.set_slice_whole, Rect.mem_set_unit]
  exact Iff.rfl

/-- Row r lies in the block of point r / 2000: the fifty blocks tile the array. -/
theorem cover (i : S100000x64.Idx) :
    ∃ t : Fin cfg2.N, (cfg2.win 7).flush t = true ∧ i ∈ ((cfg2.win 7).blk t).view.set := by
  have hi0 : (i 0).val < 100000 := (i 0).isLt
  have hi1 : (i 1).val < 64 := (i 1).isLt
  have hN : grid2.N = 50 := N_2
  let t : Fin cfg2.N := ⟨(i 0).val / 2000, by show (i 0).val / 2000 < grid2.N; omega⟩
  obtain ⟨e70, e71, -⟩ := index_maps t
  have ht : t.val = (i 0).val / 2000 := rfl
  refine ⟨t, flush2_7 t, ?_⟩
  rw [mem_blk]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 64 ≤ (i 1).val ∧ (i 1).val < win2_7.index t (1 : Fin 2) * 64 + 64; omega

/-- The output array after the region's run. -/
theorem final (c : Dev nD) :
    (dat2 V c).arrAt 7 cfg2.N
      = combine (V c main_v38) (V c main_v39) (V c main_arg6) (V c main_v40) (V c main_arg8) (V c main_v41) (V c main_arg3) :=
  (dat2 V c).arrAt_eq_of_cover 7 _ (fun t _ => flushed_eq V c t) cover

end Cert.KernelIdeal.RegionC

end
-- ==== Proof.RefStages.lean ====
/-
  The reference's stages are the same entrywise functions the kernel's regions compute.

  Each lemma reads the reference's stage at an index through its operations (a product with a broadcast column, a
  contraction as a sum, a maximum with the zero splat) and finds the region's function of the stage's operands.
-/
import proofs.«133820_j3693671874875_1_alg».proof.Proof.Gen.ReferenceIdeal.Read
import proofs.«133820_j3693671874875_1_alg».proof.Proof.RegionA
import proofs.«133820_j3693671874875_1_alg».proof.Proof.RegionB
import proofs.«133820_j3693671874875_1_alg».proof.Proof.RegionC

set_option maxRecDepth 16384

noncomputable section

namespace Cert.RefStages

open Idealize.ShloMosaic Idealize.ShloMosaic.ValueIdx Idealize.SL.Sem
open Cert.ReferenceIdeal Cert.ReferenceIdeal.Read

/-- The reference's first product x·W₁ of the degree-scaled features is the projection of the features, the
    source-degree column and the weight. -/
theorem ref_project (x0 : (⟨S100000x128, .f32⟩ : BufTy).Contents (Elt Ideal)) (x1 : (⟨S1600000, .i32⟩ : BufTy).Contents (Elt Ideal))
    (x4 : (⟨S128x64, .f32⟩ : BufTy).Contents (Elt Ideal)) :
    val_main_v16 (F := Ideal) x0 x1 x4 = Cert.KernelIdeal.RegionA.project x0 (val_main_v13 (F := Ideal) x1) x4 := by
  funext i
  rw [val_main_v16_apply]
  unfold Cert.KernelIdeal.RegionA.project
  refine Finset.sum_congr rfl fun k _ => ?_
  rw [val_main_v15_apply, val_main_v14_apply]
  have e1 : lidx_main_v16 i k = ix2 (i 0) k := funext fun a => Fin.ext (by
    match a with
    | ⟨0, _⟩ => rfl
    | ⟨1, _⟩ => rfl)
  have e2 : ridx_main_v16 i k = ix2 k (i 1) := funext fun a => Fin.ext (by
    match a with
    | ⟨0, _⟩ => rfl
    | ⟨1, _⟩ => rfl)
  have e3 : idx_main_v14 (ix2 (i 0) k) = ix2 (i 0) (0 : Fin 1) := funext fun a => Fin.ext (by
    match a with
    | ⟨0, _⟩ => rfl
    | ⟨1, _⟩ => rfl)
  rw [e1, e2, e3]
  rfl

variable {F : FTy → Type} [FloatOps F]

/-- The reference's activation relu(agg·nd + b)·ns is the rescaled activation of the aggregate, the two degree
    columns and the bias row. -/
theorem ref_rescale (x0 : (⟨S100000x128, .f32⟩ : BufTy).Contents (Elt F)) (x1 x2 : (⟨S1600000, .i32⟩ : BufTy).Contents (Elt F))
    (x4 : (⟨S128x64, .f32⟩ : BufTy).Contents (Elt F)) (x5 : (⟨S64, .f32⟩ : BufTy).Contents (Elt F)) :
    val_main_v36 (F := F) x0 x1 x2 x4 x5 = Cert.KernelIdeal.RegionB.rescale (val_main_v26 (F := F) x0 x1 x2 x4)
      (val_main_v27 (F := F) x2) (val_main_v30 (F := F) x5) (val_main_v34 (F := F) x1) := by
  funext i
  rw [val_main_v36_apply, val_main_v33_apply, val_main_v32_apply, val_main_v29_apply, val_main_v28_apply, val_main_v31_apply,
    val_main_v35_apply, val_main_call2_v0_apply, val_main_call2_cst_apply]
  have e1 : idx_main_v28 i = ix2 (i 0) (0 : Fin 1) := funext fun a => Fin.ext (by
    match a with
    | ⟨0, _⟩ => rfl
    | ⟨1, _⟩ => rfl)
  have e2 : idx_main_v31 i = ix2 (0 : Fin 1) (i 1) := funext fun a => Fin.ext (by
    match a with
    | ⟨0, _⟩ => rfl
    | ⟨1, _⟩ => rfl)
  have e3 : idx_main_v35 i = ix2 (i 0) (0 : Fin 1) := funext fun a => Fin.ext (by
    match a with
    | ⟨0, _⟩ => rfl
    | ⟨1, _⟩ => rfl)
  rw [e1, e2, e3]
  rfl

/-- The reference aggregates the rescaled activation once per head; the two aggregates are one array. -/
theorem second_aggregate_eq (x0 : (⟨S100000x128, .f32⟩ : BufTy).Contents (Elt F)) (x1 x2 : (⟨S1600000, .i32⟩ : BufTy).Contents (Elt F))
    (x4 : (⟨S128x64, .f32⟩ : BufTy).Contents (Elt F)) (x5 : (⟨S64, .f32⟩ : BufTy).Contents (Elt F)) :
    val_main_v66 (F := F) x0 x1 x2 x4 x5 = val_main_v46 (F := F) x0 x1 x2 x4 x5 := rfl

/-- Likewise the destination-degree column the second head scales by is the first head's. -/
theorem second_column_eq (x2 : (⟨S1600000, .i32⟩ : BufTy).Contents (Elt F)) :
    val_main_v68 (F := F) x2 = val_main_v48 (F := F) x2 := rfl

set_option maxRecDepth 100000 in
set_option maxHeartbeats 1000000 in
/-- The reference's result μ + noise·exp(log σ) is the sample of the second aggregate, the destination-degree
    column, the two heads' weights and bias rows, and the noise. -/
theorem ref_combine (x0 : (⟨S100000x128, .f32⟩ : BufTy).Contents (Elt Ideal)) (x1 x2 : (⟨S1600000, .i32⟩ : BufTy).Contents (Elt Ideal))
    (x3 : (⟨S100000x64, .f32⟩ : BufTy).Contents (Elt Ideal)) (x4 : (⟨S128x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) :
    val_main_v76 (F := Ideal) x0 x1 x2 x3 x4 x5 x6 x7 x8 x9
      = Cert.KernelIdeal.RegionC.combine (val_main_v46 (F := Ideal) x0 x1 x2 x4 x5) (val_main_v48 (F := Ideal) x2) x6
          (val_main_v51 (F := Ideal) x7) x8 (val_main_v71 (F := Ideal) x9) x3 := by
  funext i
  rw [val_main_v76_apply, val_main_v53_apply, val_main_v50_apply, val_main_v47_apply, val_main_v49_apply, val_main_v52_apply,
    val_main_v75_apply, val_main_v74_apply, val_main_v73_apply, val_main_v70_apply, val_main_v67_apply, val_main_v69_apply,
    val_main_v72_apply, second_aggregate_eq, second_column_eq]
  have l47 : ∀ k, lidx_main_v47 i k = ix2 (i 0) k := fun k => funext fun a => Fin.ext (by
    match a with
    | ⟨0, _⟩ => rfl
    | ⟨1, _⟩ => rfl)
  have r47 : ∀ k, ridx_main_v47 i k = ix2 k (i 1) := fun k => funext fun a => Fin.ext (by
    match a with
    | ⟨0, _⟩ => rfl
    | ⟨1, _⟩ => rfl)
  have r67 : ∀ k, ridx_main_v67 i k = ix2 k (i 1) := fun k => funext fun a => Fin.ext (by
    match a with
    | ⟨0, _⟩ => rfl
    | ⟨1, _⟩ => rfl)
  have c49 : idx_main_v49 i = ix2 (i 0) (0 : Fin 1) := funext fun a => Fin.ext (by
    match a with
    | ⟨0, _⟩ => rfl
    | ⟨1, _⟩ => rfl)
  have b52 : idx_main_v52 i = ix2 (0 : Fin 1) (i 1) := funext fun a => Fin.ext (by
    match a with
    | ⟨0, _⟩ => rfl
    | ⟨1, _⟩ => rfl)
  have b72 : idx_main_v72 i = ix2 (0 : Fin 1) (i 1) := funext fun a => Fin.ext (by
    match a with
    | ⟨0, _⟩ => rfl
    | ⟨1, _⟩ => rfl)
  simp only [Ideal.addf_def, Ideal.mulf_def, Ideal.hostUnary_exp_def]
  exact Cert.KernelIdeal.RegionC.assemble (val_main_v46 (F := Ideal) x0 x1 x2 x4 x5) (val_main_v48 (F := Ideal) x2) x6
    (val_main_v51 (F := Ideal) x7) x8 (val_main_v71 (F := Ideal) x9) x3 i
    (fun k => lidx_main_v47 i k) (fun k => ridx_main_v47 i k) (fun k => ridx_main_v67 i k)
    (idx_main_v49 i) (idx_main_v52 i) (idx_main_v72 i) i l47 r47 r67 c49 b52 b72 rfl

end Cert.RefStages

end
-- ==== Proof.Aggregate.lean ====
/-
  The message-passing step both programs share: gather the rows of a node array at the (wrapped) source indices of the
  edges and add each gathered row into the row of its edge's destination index, starting from zero.

  Both layers use it, on different node arrays; the reference spells it out once per use, with the same operations.
-/
import proofs.«133820_j3693671874875_1_alg».proof.Proof.Gen.ReferenceIdeal.Read

noncomputable section

namespace Cert.Aggregate

open Idealize.ShloMosaic Idealize.SL.Sem
open Cert.ReferenceIdeal Cert.ReferenceIdeal.Read

variable {F : FTy → Type} [FloatOps F]

/-- The aggregate of a node array X over the edges (src, dst): Σ over edges e with dst e = r of X(src e, ·). -/
def aggregate (X : (⟨S100000x64, .f32⟩ : BufTy).Contents (Elt F)) (src dst : (⟨S1600000, .i32⟩ : BufTy).Contents (Elt F)) : (⟨S100000x64, .f32⟩ : BufTy).Contents (Elt F) :=
  Host.scatterAdd scatter_S100000x64_S1600000x1_S1600000x64_1_0_0_1 (val_main_v24 (F := F)) (val_main_v25 (F := F) dst)
    (Host.gather gather_S100000x64_S1600000x1_S1600000x64_1_0_n_n_0_1_164 X (val_main_v22 (F := F) src))

/-- The reference's first aggregation is the aggregate of its projected features. -/
theorem first (x0 : (⟨S100000x128, .f32⟩ : BufTy).Contents (Elt F)) (x1 x2 : (⟨S1600000, .i32⟩ : BufTy).Contents (Elt F)) (x4 : (⟨S128x64, .f32⟩ : BufTy).Contents (Elt F)) :
    val_main_v26 (F := F) x0 x1 x2 x4 = aggregate (val_main_v16 (F := F) x0 x1 x4) x1 x2 := rfl

/-- The reference's second aggregation is the aggregate of its rescaled activation. -/
theorem second (x0 : (⟨S100000x128, .f32⟩ : BufTy).Contents (Elt F)) (x1 x2 : (⟨S1600000, .i32⟩ : BufTy).Contents (Elt F)) (x4 : (⟨S128x64, .f32⟩ : BufTy).Contents (Elt F)) (x5 : (⟨S64, .f32⟩ : BufTy).Contents (Elt F)) :
    val_main_v46 (F := F) x0 x1 x2 x4 x5 = aggregate (val_main_v36 (F := F) x0 x1 x2 x4 x5) x1 x2 := rfl

end Cert.Aggregate

end
-- ==== Proof.Host5.lean ====
/-
  The buffers region 0 is entered with, read back through the five opening host stretches.

  No opening operation writes an argument, so each argument holds its launch contents. The two degree normalisers are
  the reference's own stages of the edge arrays — the same scatter of ones, clip at one and power −1/2 —, and region
  0's second operand is the source normaliser laid out as a column.
-/
import proofs.«133820_j3693671874875_1_alg».proof.Proof.Gen.KernelIdeal.Frame
import proofs.«133820_j3693671874875_1_alg».proof.Proof.Gen.ReferenceIdeal.Read
import proofs.«133820_j3693671874875_1_alg».proof.Proof.LibLayout

set_option maxRecDepth 16384

noncomputable section

namespace Cert.KernelIdeal.Host5

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) _ = _
  after_results
theorem arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) _ = _
  after_results
theorem arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) _ = _
  after_results
theorem arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) _ = _
  after_results
theorem arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) _ = _
  after_results
theorem arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) _ = _
  after_results
theorem arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) _ = _
  after_results
theorem arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) _ = _
  after_results
theorem arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) _ = _
  after_results
theorem arg9 (c : Dev nD) : W5 m ρ c (Proc.devRef .tc main_arg9) = m ((c : Thread nD τ).loc main_arg9) := by
  show StableHlo.after hostOps0_4 (StableHlo.after hostOps0_3 (StableHlo.after hostOps0_2 (StableHlo.after hostOps0_1 (StableHlo.after hostOps0 (W0 m ρ c))))) _ = _
  after_results

/-- The source-degree normaliser deg_out^(−1/2) is the reference's stage. -/
theorem v10 (c : Dev nD) : W5 m ρ c (Proc.devRef .tc main_v10)
    = Cert.ReferenceIdeal.Read.val_main_v10 (F := F) (m ((c : Thread nD τ).loc main_arg1)) := by
  show StableHlo.after hostOps0_4 (StableHlo.after hostOps0_3 (StableHlo.after hostOps0_2 (StableHlo.after hostOps0_1 (StableHlo.after hostOps0 (W0 m ρ c))))) _ = _
  after_results
  rfl

/-- The destination-degree normaliser deg_in^(−1/2) is the reference's stage. -/
theorem v12 (c : Dev nD) : W5 m ρ c (Proc.devRef .tc main_v12)
    = Cert.ReferenceIdeal.Read.val_main_v12 (F := F) (m ((c : Thread nD τ).loc main_arg2)) := by
  show StableHlo.after hostOps0_4 (StableHlo.after hostOps0_3 (StableHlo.after hostOps0_2 (StableHlo.after hostOps0_1 (StableHlo.after hostOps0 (W0 m ρ c))))) _ = _
  after_results
  rfl

/-- Region 0's column operand: the source normaliser reshaped to a column is the reference's broadcast column. -/
theorem v13 (c : Dev nD) : W5 m ρ c (Proc.devRef .tc main_v13)
    = Cert.ReferenceIdeal.Read.val_main_v13 (F := F) (m ((c : Thread nD τ).loc main_arg1)) := by
  show StableHlo.after hostOps0_4 (StableHlo.after hostOps0_3 (StableHlo.after hostOps0_2 (StableHlo.after hostOps0_1 (StableHlo.after hostOps0 (W0 m ρ c))))) _ = _
  after_results
  show shapeCast S100000x1 (Cert.ReferenceIdeal.Read.val_main_v10 (F := F) (m ((c : Thread nD τ).loc main_arg1))) shapeCasts_S100000_S100000x1 = _
  exact Cert.Layout.col_cast_eq_bcast _ _ _ rfl _

/-! ## At region 0's exit

Region 0 replaces only its own windows' arrays; every other buffer is as it entered. -/

theorem exit_arg1 (c : Dev nD) : W6 m ρ c (Proc.devRef .tc main_arg1) = m ((c : Thread nD τ).loc main_arg1) :=
  (W6_of_ne m ρ c main_arg1 (by decide)).trans (arg1 m ρ c)
theorem exit_arg2 (c : Dev nD) : W6 m ρ c (Proc.devRef .tc main_arg2) = m ((c : Thread nD τ).loc main_arg2) :=
  (W6_of_ne m ρ c main_arg2 (by decide)).trans (arg2 m ρ c)
theorem exit_arg3 (c : Dev nD) : W6 m ρ c (Proc.devRef .tc main_arg3) = m ((c : Thread nD τ).loc main_arg3) :=
  (W6_of_ne m ρ c main_arg3 (by decide)).trans (arg3 m ρ c)
theorem exit_arg5 (c : Dev nD) : W6 m ρ c (Proc.devRef .tc main_arg5) = m ((c : Thread nD τ).loc main_arg5) :=
  (W6_of_ne m ρ c main_arg5 (by decide)).trans (arg5 m ρ c)
theorem exit_arg6 (c : Dev nD) : W6 m ρ c (Proc.devRef .tc main_arg6) = m ((c : Thread nD τ).loc main_arg6) :=
  (W6_of_ne m ρ c main_arg6 (by decide)).trans (arg6 m ρ c)
theorem exit_arg7 (c : Dev nD) : W6 m ρ c (Proc.devRef .tc main_arg7) = m ((c : Thread nD τ).loc main_arg7) :=
  (W6_of_ne m ρ c main_arg7 (by decide)).trans (arg7 m ρ c)
theorem exit_arg8 (c : Dev nD) : W6 m ρ c (Proc.devRef .tc main_arg8) = m ((c : Thread nD τ).loc main_arg8) :=
  (W6_of_ne m ρ c main_arg8 (by decide)).trans (arg8 m ρ c)
theorem exit_arg9 (c : Dev nD) : W6 m ρ c (Proc.devRef .tc main_arg9) = m ((c : Thread nD τ).loc main_arg9) :=
  (W6_of_ne m ρ c main_arg9 (by decide)).trans (arg9 m ρ c)
theorem exit_v10 (c : Dev nD) : W6 m ρ c (Proc.devRef .tc main_v10)
    = Cert.ReferenceIdeal.Read.val_main_v10 (F := F) (m ((c : Thread nD τ).loc main_arg1)) :=
  (W6_of_ne m ρ c main_v10 (by decide)).trans (v10 m ρ c)
theorem exit_v12 (c : Dev nD) : W6 m ρ c (Proc.devRef .tc main_v12)
    = Cert.ReferenceIdeal.Read.val_main_v12 (F := F) (m ((c : Thread nD τ).loc main_arg2)) :=
  (W6_of_ne m ρ c main_v12 (by decide)).trans (v12 m ρ c)

end Cert.KernelIdeal.Host5

end
-- ==== Proof.Host7.lean ====
/-
  The buffers region 1 is entered with: the host stretch between regions 0 and 1, read over region 0's exit contents.

  The stretch wraps negative source indices, gathers region 0's output at them, and scatter-adds the gathered rows by
  destination index: the aggregate of region 0's output. It reshapes the two degree normalisers to columns and the
  first bias to a row; the reference broadcasts them to the same layouts. It writes no argument and neither normaliser.
-/
import proofs.«133820_j3693671874875_1_alg».proof.Proof.Gen.KernelIdeal.Frame
import proofs.«133820_j3693671874875_1_alg».proof.Proof.Gen.ReferenceIdeal.Read
import proofs.«133820_j3693671874875_1_alg».proof.Proof.LibLayout
import proofs.«133820_j3693671874875_1_alg».proof.Proof.Aggregate
import proofs.«133820_j3693671874875_1_alg».proof.Proof.Host5

set_option maxRecDepth 16384

noncomputable section

namespace Cert.KernelIdeal.Host7

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Region 1's first operand: the aggregate of region 0's output over the edges. -/
theorem v24 (c : Dev nD) : W7 m ρ c (Proc.devRef .tc main_v24)
    = Cert.Aggregate.aggregate (F := F) (W6 m ρ c (Proc.devRef .tc main_v14)) (m ((c : Thread nD τ).loc main_arg1)) (m ((c : Thread nD τ).loc main_arg2)) := by
  show StableHlo.after hostOps1 (W6 m ρ c) _ = _
  after_results
  rw [Host5.exit_arg1 m ρ c, Host5.exit_arg2 m ρ c]
  rfl

/-- The destination normaliser as a column. -/
theorem v25 (c : Dev nD) : W7 m ρ c (Proc.devRef .tc main_v25) = Cert.ReferenceIdeal.Read.val_main_v27 (F := F) (m ((c : Thread nD τ).loc main_arg2)) := by
  show StableHlo.after hostOps1 (W6 m ρ c) _ = _
  after_results
  show shapeCast S100000x1 (W6 m ρ c (Proc.devRef .tc main_v12)) shapeCasts_S100000_S100000x1 = _
  rw [Host5.exit_v12 m ρ c]
  exact Cert.Layout.col_cast_eq_bcast _ _ _ rfl _

/-- The source normaliser as a column. -/
theorem v26 (c : Dev nD) : W7 m ρ c (Proc.devRef .tc main_v26) = Cert.ReferenceIdeal.Read.val_main_v34 (F := F) (m ((c : Thread nD τ).loc main_arg1)) := by
  show StableHlo.after hostOps1 (W6 m ρ c) _ = _
  after_results
  show shapeCast S100000x1 (W6 m ρ c (Proc.devRef .tc main_v10)) shapeCasts_S100000_S100000x1 = _
  rw [Host5.exit_v10 m ρ c]
  exact Cert.Layout.col_cast_eq_bcast _ _ _ rfl _

/-- The first bias as a row. -/
theorem v27 (c : Dev nD) : W7 m ρ c (Proc.devRef .tc main_v27) = Cert.ReferenceIdeal.Read.val_main_v30 (F := F) (m ((c : Thread nD τ).loc main_arg5)) := by
  show StableHlo.after hostOps1 (W6 m ρ c) _ = _
  after_results
  show shapeCast S1x64 (W6 m ρ c (Proc.devRef .tc main_arg5)) shapeCasts_S64_S1x64 = _
  rw [Host5.exit_arg5 m ρ c]
  exact Cert.Layout.row_cast_eq_bcast _ _ _ rfl _

/-! ## What the stretch leaves alone -/

theorem arg1 (c : Dev nD) : W7 m ρ c (Proc.devRef .tc main_arg1) = m ((c : Thread nD τ).loc main_arg1) := by
  show StableHlo.after hostOps1 (W6 m ρ c) _ = _
  after_results
  exact Host5.exit_arg1 m ρ c
theorem arg2 (c : Dev nD) : W7 m ρ c (Proc.devRef .tc main_arg2) = m ((c : Thread nD τ).loc main_arg2) := by
  show StableHlo.after hostOps1 (W6 m ρ c) _ = _
  after_results
  exact Host5.exit_arg2 m ρ c
theorem arg3 (c : Dev nD) : W7 m ρ c (Proc.devRef .tc main_arg3) = m ((c : Thread nD τ).loc main_arg3) := by
  show StableHlo.after hostOps1 (W6 m ρ c) _ = _
  after_results
  exact Host5.exit_arg3 m ρ c
theorem arg6 (c : Dev nD) : W7 m ρ c (Proc.devRef .tc main_arg6) = m ((c : Thread nD τ).loc main_arg6) := by
  show StableHlo.after hostOps1 (W6 m ρ c) _ = _
  after_results
  exact Host5.exit_arg6 m ρ c
theorem arg7 (c : Dev nD) : W7 m ρ c (Proc.devRef .tc main_arg7) = m ((c : Thread nD τ).loc main_arg7) := by
  show StableHlo.after hostOps1 (W6 m ρ c) _ = _
  after_results
  exact Host5.exit_arg7 m ρ c
theorem arg8 (c : Dev nD) : W7 m ρ c (Proc.devRef .tc main_arg8) = m ((c : Thread nD τ).loc main_arg8) := by
  show StableHlo.after hostOps1 (W6 m ρ c) _ = _
  after_results
  exact Host5.exit_arg8 m ρ c
theorem arg9 (c : Dev nD) : W7 m ρ c (Proc.devRef .tc main_arg9) = m ((c : Thread nD τ).loc main_arg9) := by
  show StableHlo.after hostOps1 (W6 m ρ c) _ = _
  after_results
  exact Host5.exit_arg9 m ρ c
theorem v12 (c : Dev nD) : W7 m ρ c (Proc.devRef .tc main_v12) = Cert.ReferenceIdeal.Read.val_main_v12 (F := F) (m ((c : Thread nD τ).loc main_arg2)) := by
  show StableHlo.after hostOps1 (W6 m ρ c) _ = _
  after_results
  exact Host5.exit_v12 m ρ c

/-! ## At region 1's exit

Region 1 replaces only its own windows' arrays; every other buffer is as it entered. -/

theorem exit_arg1 (c : Dev nD) : W8 m ρ c (Proc.devRef .tc main_arg1) = m ((c : Thread nD τ).loc main_arg1) :=
  (W8_of_ne m ρ c main_arg1 (by decide)).trans (arg1 m ρ c)
theorem exit_arg2 (c : Dev nD) : W8 m ρ c (Proc.devRef .tc main_arg2) = m ((c : Thread nD τ).loc main_arg2) :=
  (W8_of_ne m ρ c main_arg2 (by decide)).trans (arg2 m ρ c)
theorem exit_arg3 (c : Dev nD) : W8 m ρ c (Proc.devRef .tc main_arg3) = m ((c : Thread nD τ).loc main_arg3) :=
  (W8_of_ne m ρ c main_arg3 (by decide)).trans (arg3 m ρ c)
theorem exit_arg6 (c : Dev nD) : W8 m ρ c (Proc.devRef .tc main_arg6) = m ((c : Thread nD τ).loc main_arg6) :=
  (W8_of_ne m ρ c main_arg6 (by decide)).trans (arg6 m ρ c)
theorem exit_arg7 (c : Dev nD) : W8 m ρ c (Proc.devRef .tc main_arg7) = m ((c : Thread nD τ).loc main_arg7) :=
  (W8_of_ne m ρ c main_arg7 (by decide)).trans (arg7 m ρ c)
theorem exit_arg8 (c : Dev nD) : W8 m ρ c (Proc.devRef .tc main_arg8) = m ((c : Thread nD τ).loc main_arg8) :=
  (W8_of_ne m ρ c main_arg8 (by decide)).trans (arg8 m ρ c)
theorem exit_arg9 (c : Dev nD) : W8 m ρ c (Proc.devRef .tc main_arg9) = m ((c : Thread nD τ).loc main_arg9) :=
  (W8_of_ne m ρ c main_arg9 (by decide)).trans (arg9 m ρ c)
theorem exit_v12 (c : Dev nD) : W8 m ρ c (Proc.devRef .tc main_v12) = Cert.ReferenceIdeal.Read.val_main_v12 (F := F) (m ((c : Thread nD τ).loc main_arg2)) :=
  (W8_of_ne m ρ c main_v12 (by decide)).trans (v12 m ρ c)

end Cert.KernelIdeal.Host7

end
-- ==== Proof.Host9.lean ====
/-
  The buffers region 2 is entered with: the host stretch between regions 1 and 2, read over region 1's exit contents.

  The stretch aggregates region 1's output over the edges exactly as the earlier stretch aggregated region 0's, and
  reshapes the destination normaliser to a column and the two heads' biases to rows. It writes no argument.
-/
import proofs.«133820_j3693671874875_1_alg».proof.Proof.Gen.KernelIdeal.Frame
import proofs.«133820_j3693671874875_1_alg».proof.Proof.Gen.ReferenceIdeal.Read
import proofs.«133820_j3693671874875_1_alg».proof.Proof.LibLayout
import proofs.«133820_j3693671874875_1_alg».proof.Proof.Aggregate
import proofs.«133820_j3693671874875_1_alg».proof.Proof.Host7

set_option maxRecDepth 16384

noncomputable section

namespace Cert.KernelIdeal.Host9

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Region 2's first operand: the aggregate of region 1's output over the edges. -/
theorem v38 (c : Dev nD) : W9 m ρ c (Proc.devRef .tc main_v38)
    = Cert.Aggregate.aggregate (F := F) (W8 m ρ c (Proc.devRef .tc main_v28)) (m ((c : Thread nD τ).loc main_arg1)) (m ((c : Thread nD τ).loc main_arg2)) := by
  show StableHlo.after hostOps2 (W8 m ρ c) _ = _
  after_results
  rw [Host7.exit_arg1 m ρ c, Host7.exit_arg2 m ρ c]
  rfl

/-- The destination normaliser as a column. -/
theorem v39 (c : Dev nD) : W9 m ρ c (Proc.devRef .tc main_v39) = Cert.ReferenceIdeal.Read.val_main_v48 (F := F) (m ((c : Thread nD τ).loc main_arg2)) := by
  show StableHlo.after hostOps2 (W8 m ρ c) _ = _
  after_results
  show shapeCast S100000x1 (W8 m ρ c (Proc.devRef .tc main_v12)) shapeCasts_S100000_S100000x1 = _
  rw [Host7.exit_v12 m ρ c]
  exact Cert.Layout.col_cast_eq_bcast _ _ _ rfl _

/-- The mean head's bias as a row. -/
theorem v40 (c : Dev nD) : W9 m ρ c (Proc.devRef .tc main_v40) = Cert.ReferenceIdeal.Read.val_main_v51 (F := F) (m ((c : Thread nD τ).loc main_arg7)) := by
  show StableHlo.after hostOps2 (W8 m ρ c) _ = _
  after_results
  show shapeCast S1x64 (W8 m ρ c (Proc.devRef .tc main_arg7)) shapeCasts_S64_S1x64 = _
  rw [Host7.exit_arg7 m ρ c]
  exact Cert.Layout.row_cast_eq_bcast _ _ _ rfl _

/-- The log-deviation head's bias as a row. -/
theorem v41 (c : Dev nD) : W9 m ρ c (Proc.devRef .tc main_v41) = Cert.ReferenceIdeal.Read.val_main_v71 (F := F) (m ((c : Thread nD τ).loc main_arg9)) := by
  show StableHlo.after hostOps2 (W8 m ρ c) _ = _
  after_results
  show shapeCast S1x64 (W8 m ρ c (Proc.devRef .tc main_arg9)) shapeCasts_S64_S1x64 = _
  rw [Host7.exit_arg9 m ρ c]
  exact Cert.Layout.row_cast_eq_bcast _ _ _ rfl _

/-! ## What the stretch leaves alone -/

theorem arg3 (c : Dev nD) : W9 m ρ c (Proc.devRef .tc main_arg3) = m ((c : Thread nD τ).loc main_arg3) := by
  show StableHlo.after hostOps2 (W8 m ρ c) _ = _
  after_results
  exact Host7.exit_arg3 m ρ c
theorem arg6 (c : Dev nD) : W9 m ρ c (Proc.devRef .tc main_arg6) = m ((c : Thread nD τ).loc main_arg6) := by
  show StableHlo.after hostOps2 (W8 m ρ c) _ = _
  after_results
  exact Host7.exit_arg6 m ρ c
theorem arg8 (c : Dev nD) : W9 m ρ c (Proc.devRef .tc main_arg8) = m ((c : Thread nD τ).loc main_arg8) := by
  show StableHlo.after hostOps2 (W8 m ρ c) _ = _
  after_results
  exact Host7.exit_arg8 m ρ c

end Cert.KernelIdeal.Host9

end
-- ==== Proof.KernelValue.lean ====
/-
  The idealized kernel's result is the reference's last stage of the launch arguments.

  Bottom-up through the three regions. Region 0 is entered with the features, the source-degree column and the first
  weight, so it leaves the reference's projected features. The stretch after it aggregates that array over the edges
  as the reference does, and region 1 is entered with that aggregate, the two degree columns and the bias row, so it
  leaves the reference's rescaled activation. The next stretch aggregates again, and region 2 is entered with that
  aggregate, the destination-degree column, the heads' weights and bias rows and the noise, so it leaves the
  reference's sample.
-/
import proofs.«133820_j3693671874875_1_alg».proof.Proof.Gen.KernelIdeal.Frame
import proofs.«133820_j3693671874875_1_alg».proof.Proof.Gen.ReferenceIdeal.Read
import proofs.«133820_j3693671874875_1_alg».proof.Proof.RegionA
import proofs.«133820_j3693671874875_1_alg».proof.Proof.RegionB
import proofs.«133820_j3693671874875_1_alg».proof.Proof.RegionC
import proofs.«133820_j3693671874875_1_alg».proof.Proof.RefStages
import proofs.«133820_j3693671874875_1_alg».proof.Proof.Aggregate
import proofs.«133820_j3693671874875_1_alg».proof.Proof.Host5
import proofs.«133820_j3693671874875_1_alg».proof.Proof.Host7
import proofs.«133820_j3693671874875_1_alg».proof.Proof.Host9

set_option maxRecDepth 16384

noncomputable section

namespace Cert.KernelIdeal.KernelValue

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- Region 0 leaves the reference's projected features (feat · ns) · W₁. -/
theorem out0 (c : Dev nD) : W6 m ρ c (Proc.devRef .tc main_v14)
    = val_main_v16 (F := Ideal) (m ((c : Thread nD τ).loc main_arg0)) (m ((c : Thread nD τ).loc main_arg1)) (m ((c : Thread nD τ).loc main_arg4)) :=
  (W6_arr m ρ c 3).trans ((RegionA.final (V5 m ρ) c).trans (by
    rw [Cert.RefStages.ref_project]
    exact congr (congr (congrArg RegionA.project (Host5.arg0 m ρ c)) (Host5.v13 m ρ c)) (Host5.arg4 m ρ c)))

/-- Region 1 leaves the reference's rescaled activation relu(agg₁ · nd + b₁) · ns. -/
theorem out1 (c : Dev nD) : W8 m ρ c (Proc.devRef .tc main_v28)
    = val_main_v36 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  (W8_arr m ρ c 4).trans ((RegionB.final (V7 m ρ) c).trans (by
    rw [Cert.RefStages.ref_rescale, Cert.Aggregate.first]
    exact congr (congr (congr (congrArg RegionB.rescale
      ((Host7.v24 m ρ c).trans (congrArg (fun X => Cert.Aggregate.aggregate (F := Ideal) X (m ((c : Thread nD τ).loc main_arg1)) (m ((c : Thread nD τ).loc main_arg2))) (out0 m ρ c))))
      (Host7.v25 m ρ c)) (Host7.v27 m ρ c)) (Host7.v26 m ρ c)))

/-- Region 2 leaves the reference's sample μ + noise · exp(log σ): the kernel's result. -/
theorem out2 (c : Dev nD) : W10 m ρ c (Proc.devRef .tc main_v42)
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W10_arr m ρ c 7).trans ((RegionC.final (V9 m ρ) c).trans (by
    rw [Cert.RefStages.ref_combine, Cert.Aggregate.second]
    exact congr (congr (congr (congr (congr (congr (congrArg RegionC.combine
      ((Host9.v38 m ρ c).trans (congrArg (fun X => Cert.Aggregate.aggregate (F := Ideal) X (m ((c : Thread nD τ).loc main_arg1)) (m ((c : Thread nD τ).loc main_arg2))) (out1 m ρ c))))
      (Host9.v39 m ρ c)) (Host9.arg6 m ρ c)) (Host9.v40 m ρ c)) (Host9.arg8 m ρ c)) (Host9.v41 m ρ c)) (Host9.arg3 m ρ c)))

end Cert.KernelIdeal.KernelValue

end
-- ==== Proof.lean ====
/-
  Two stacked graph-convolution layers with symmetric degree normalisation, a ReLU between them, and a
  reparameterised sample z = μ + noise · exp(log σ).

  Write ns = deg_out^(−1/2) and nd = deg_in^(−1/2) (degrees counted over the edge list and clipped below at one), and
  agg(X) for the edge aggregation: row r of agg(X) is the sum, over the edges whose destination is r, of the row of X
  at the edge's source. Both programs compute
      h  = relu(agg((feat · ns) · W₁) · nd + b₁),
      a₂ = agg(h · ns),
      z  = (a₂ · W_μ) · nd + b_μ + noise · exp((a₂ · W_σ) · nd + b_σ).
  The kernel does the three node-dense stages — the projection; bias, ReLU and rescale; the two heads and the sample —
  in tiled regions of 2000 rows, and leaves the degree counts and the two aggregations to host operations. The
  reference does everything with host operations, and spells the second aggregation once per head.

  At the extended reals a change of float format is the identity and a matrix product is the plain sum over the
  contracted axis, so each region's output array is, entry by entry, the same function of its operands as the
  reference's corresponding stage (Proof/RegionA, RegionB, RegionC for the kernel; Proof/RefStages for the reference).
  The host operations between the regions are the reference's own, applied to the same arrays (Proof/Host5, Host7,
  Host9, Proof/Aggregate), up to a vector laid out as a column or a row by a reshape on one side and by a broadcast
  on the other (Proof/Layout). No law of arithmetic is needed beyond that re-tiling, so the finiteness of the inputs
  is never used.

  The idealization rewrote no operation, so the kernel's idealized program is its own text read at the extended reals.
-/
import proofs.«133820_j3693671874875_1_alg».proof.Defs
import proofs.«133820_j3693671874875_1_alg».proof.Proof.Gen.Kernel
import proofs.«133820_j3693671874875_1_alg».proof.Proof.Gen.Kernel.Skeleton
import proofs.«133820_j3693671874875_1_alg».proof.Proof.Gen.Kernel.Launch
import proofs.«133820_j3693671874875_1_alg».proof.Proof.Gen.Kernel.Points
import proofs.«133820_j3693671874875_1_alg».proof.Proof.Gen.Kernel.Frame
import proofs.«133820_j3693671874875_1_alg».proof.Proof.Gen.KernelIdeal
import proofs.«133820_j3693671874875_1_alg».proof.Proof.Gen.KernelIdeal.Skeleton
import proofs.«133820_j3693671874875_1_alg».proof.Proof.Gen.KernelIdeal.Launch
import proofs.«133820_j3693671874875_1_alg».proof.Proof.Gen.KernelIdeal.Points
import proofs.«133820_j3693671874875_1_alg».proof.Proof.Gen.KernelIdeal.Frame
import proofs.«133820_j3693671874875_1_alg».proof.Proof.Gen.ReferenceIdeal
import proofs.«133820_j3693671874875_1_alg».proof.Proof.Gen.ReferenceIdeal.Run
import proofs.«133820_j3693671874875_1_alg».proof.Proof.Gen.ReferenceIdeal.Read
import proofs.«133820_j3693671874875_1_alg».proof.Proof.Gen.Pre_finite_inputs
import proofs.«133820_j3693671874875_1_alg».proof.Proof.KernelRun
import proofs.«133820_j3693671874875_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From memories agreeing on the arguments both programs end with the reference's last stage of those arguments:
    the kernel because its last region leaves it, the reference because that stage is its result. -/
theorem algebraic : Cert.algebraic_KernelIdeal_ReferenceIdeal := by
  intro m ρ m' ρ' _ hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.out2 m ρ c), (h c).2⟩) (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v76_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
